-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S4096x1 : Shape := ⟨2, ![4096, 1]⟩
abbrev S128x4096 : Shape := ⟨2, ![128, 4096]⟩
abbrev S128x1 : Shape := ⟨2, ![128, 1]⟩
abbrev S128 : Shape := ⟨1, ![128]⟩
abbrev S_ : Shape := ⟨0, ![]⟩

abbrev nBuf : Space → Nat
  | .hbm => 8
  | .vmem => 12
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x16384, .f32⟩
  | .hbm, ⟨3, _⟩ => ⟨S4096x16384, .f32⟩
  | .hbm, ⟨4, _⟩ => ⟨S4096x16384, .f32⟩
  | .hbm, ⟨5, _⟩ => ⟨S4096x1, .f32⟩
  | .hbm, ⟨6, _⟩ => ⟨S_, .f32⟩
  | .hbm, ⟨7, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x1, .f32⟩
  | .local _ .vmem, ⟨11, _⟩ => ⟨S128x1, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_cst : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x16384.size a
  hwx0_0 : ∀ i : grid0.Coords, EltTy.bits .f32 = 32 ∨ (Rect.block (s := S4096x16384) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x16384.size a
  hwx0_1 : ∀ i : grid0.Coords, EltTy.bits .f32 = 32 ∨ (Rect.block (s := S4096x16384) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x16384.size a
  hwx0_2 : ∀ i : grid0.Coords, EltTy.bits .f32 = 32 ∨ (Rect.block (s := S4096x16384) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x16384.size a
  hwx0_3 : ∀ i : grid0.Coords, EltTy.bits .f32 = 32 ∨ (Rect.block (s := S4096x16384) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x16384.size a
  hwx0_4 : ∀ i : grid0.Coords, EltTy.bits .f32 = 32 ∨ (Rect.block (s := S4096x16384) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S128x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S128x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S128x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S128x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_4) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S_, .f32⟩
  | .hbm, ⟨2, _⟩ => ⟨S4096x16384, .f32⟩
  | .hbm, ⟨3, _⟩ => ⟨S4096x16384, .f32⟩
  | .hbm, ⟨4, _⟩ => ⟨S_, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096x16384, .f32⟩
  | .hbm, ⟨9, _⟩ => ⟨S4096x16384, .f32⟩
  | .hbm, ⟨10, _⟩ => ⟨S_, .f32⟩
  | .hbm, ⟨11, _⟩ => ⟨S4096x16384, .f32⟩
  | .hbm, ⟨12, _⟩ => ⟨S4096x16384, .f32⟩
  | .hbm, ⟨13, _⟩ => ⟨S_, .f32⟩
  | .hbm, ⟨14, _⟩ => ⟨S_, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts₀]

class Facts : Prop extends Facts₀ where

variable [Facts]
-- ==== Proof.BodyPieces.lean ====
/-
  What one run of the body leaves in each output block, as a function of the input block x it loaded (and, for the
  column of partial row sums, of what the block held before): the four elementwise blocks are x + 1, x - 1, x * 2 and
  x / 2 whichever branch is taken; the partial-sum block is "the zero block plus the row sums of x" at the first
  column block of a row block, where the body first stores zeros and reads them back, and "what it held plus the
  row sums of x" at the later ones.
-/
import proofs.«166012_j73667279061061_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every store of the body starts at the block's origin. -/
theorem origin : (![0, 0] : Fin 2 → Nat) = fun _ => 0 := funext fun a => by fin_cases a <;> rfl

/-- Elementwise block 1 when the column block is the first of its row block: its one store's value. -/
theorem first_1 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S128x1 .f32) (h7 : a7.IsWhole) (hc : cond0_0 i) (x : Vec F S128x4096 .f32) :
    out0_A_1 c i a2 h2 a3 h3 a4 h4 a5 h5 a6 h6 a7 h7 hc x = k0_pay1 x := by
  unfold out0_A_1
  rw [View.read_writes_eq_canon _ _ _ (cover0_A_1 c i a2 h2 a3 h3 a4 h4 a5 h5 a6 h6 a7 h7 hc x)]
  unfold kernelRun0_A
  dsimp only
  rw [View.canon_unit_zero origin]
  simp only [View.readAt_eq_ld, h2.read_unread, View.ld_unit_zero (S := S128x4096) origin]

/-- Elementwise block 1 at a later column block: the same store. -/
theorem later_1 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S128x1 .f32) (h7 : a7.IsWhole) (hc : ¬cond0_0 i) (x : Vec F S128x4096 .f32) (xo : Vec F S128x1 .f32) :
    out0_B_1 c i a2 h2 a3 h3 a4 h4 a5 h5 a6 h6 a7 h7 hc x xo = k0_pay1 x := by
  unfold out0_B_1
  rw [View.read_writes_eq_canon _ _ _ (cover0_B_1 c i a2 h2 a3 h3 a4 h4 a5 h5 a6 h6 a7 h7 hc x xo)]
  unfold kernelRun0_B
  dsimp only
  rw [View.canon_unit_zero origin]
  simp only [View.readAt_eq_ld, h2.read_unread, View.ld_unit_zero (S := S128x4096) origin]

/-- Elementwise block 2 when the column block is the first of its row block: its one store's value. -/
theorem first_2 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S128x1 .f32) (h7 : a7.IsWhole) (hc : cond0_0 i) (x : Vec F S128x4096 .f32) :
    out0_A_2 c i a2 h2 a3 h3 a4 h4 a5 h5 a6 h6 a7 h7 hc x = k0_pay2 x := by
  unfold out0_A_2
  rw [View.read_writes_eq_canon _ _ _ (cover0_A_2 c i a2 h2 a3 h3 a4 h4 a5 h5 a6 h6 a7 h7 hc x)]
  unfold kernelRun0_A
  dsimp only
  rw [View.canon_unit_zero origin]
  simp only [View.readAt_eq_ld, h2.read_unread, View.ld_unit_zero (S := S128x4096) origin]

/-- Elementwise block 2 at a later column block: the same store. -/
theorem later_2 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S128x1 .f32) (h7 : a7.IsWhole) (hc : ¬cond0_0 i) (x : Vec F S128x4096 .f32) (xo : Vec F S128x1 .f32) :
    out0_B_2 c i a2 h2 a3 h3 a4 h4 a5 h5 a6 h6 a7 h7 hc x xo = k0_pay2 x := by
  unfold out0_B_2
  rw [View.read_writes_eq_canon _ _ _ (cover0_B_2 c i a2 h2 a3 h3 a4 h4 a5 h5 a6 h6 a7 h7 hc x xo)]
  unfold kernelRun0_B
  dsimp only
  rw [View.canon_unit_zero origin]
  simp only [View.readAt_eq_ld, h2.read_unread, View.ld_unit_zero (S := S128x4096) origin]

/-- Elementwise block 3 when the column block is the first of its row block: its one store's value. -/
theorem first_3 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S128x1 .f32) (h7 : a7.IsWhole) (hc : cond0_0 i) (x : Vec F S128x4096 .f32) :
    out0_A_3 c i a2 h2 a3 h3 a4 h4 a5 h5 a6 h6 a7 h7 hc x = k0_pay3 x := by
  unfold out0_A_3
  rw [View.read_writes_eq_canon _ _ _ (cover0_A_3 c i a2 h2 a3 h3 a4 h4 a5 h5 a6 h6 a7 h7 hc x)]
  unfold kernelRun0_A
  dsimp only
  rw [View.canon_unit_zero origin]
  simp only [View.readAt_eq_ld, h2.read_unread, View.ld_unit_zero (S := S128x4096) origin]

/-- Elementwise block 3 at a later column block: the same store. -/
theorem later_3 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S128x1 .f32) (h7 : a7.IsWhole) (hc : ¬cond0_0 i) (x : Vec F S128x4096 .f32) (xo : Vec F S128x1 .f32) :
    out0_B_3 c i a2 h2 a3 h3 a4 h4 a5 h5 a6 h6 a7 h7 hc x xo = k0_pay3 x := by
  unfold out0_B_3
  rw [View.read_writes_eq_canon _ _ _ (cover0_B_3 c i a2 h2 a3 h3 a4 h4 a5 h5 a6 h6 a7 h7 hc x xo)]
  unfold kernelRun0_B
  dsimp only
  rw [View.canon_unit_zero origin]
  simp only [View.readAt_eq_ld, h2.read_unread, View.ld_unit_zero (S := S128x4096) origin]

/-- Elementwise block 4 when the column block is the first of its row block: its one store's value. -/
theorem first_4 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S128x1 .f32) (h7 : a7.IsWhole) (hc : cond0_0 i) (x : Vec F S128x4096 .f32) :
    out0_A_4 c i a2 h2 a3 h3 a4 h4 a5 h5 a6 h6 a7 h7 hc x = k0_pay4 x := by
  unfold out0_A_4
  rw [View.read_writes_eq_canon _ _ _ (cover0_A_4 c i a2 h2 a3 h3 a4 h4 a5 h5 a6 h6 a7 h7 hc x)]
  unfold kernelRun0_A
  dsimp only
  rw [View.canon_unit_zero origin]
  simp only [View.readAt_eq_ld, h2.read_unread, View.ld_unit_zero (S := S128x4096) origin]

/-- Elementwise block 4 at a later column block: the same store. -/
theorem later_4 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S128x1 .f32) (h7 : a7.IsWhole) (hc : ¬cond0_0 i) (x : Vec F S128x4096 .f32) (xo : Vec F S128x1 .f32) :
    out0_B_4 c i a2 h2 a3 h3 a4 h4 a5 h5 a6 h6 a7 h7 hc x xo = k0_pay4 x := by
  unfold out0_B_4
  rw [View.read_writes_eq_canon _ _ _ (cover0_B_4 c i a2 h2 a3 h3 a4 h4 a5 h5 a6 h6 a7 h7 hc x xo)]
  unfold kernelRun0_B
  dsimp only
  rw [View.canon_unit_zero origin]
  simp only [View.readAt_eq_ld, h2.read_unread, View.ld_unit_zero (S := S128x4096) origin]

/-- The partial-sum block at the first column block: zeros are stored, read back, and the row sums of x added. -/
theorem first_5 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S128x1 .f32) (h7 : a7.IsWhole) (hc : cond0_0 i) (x : Vec F S128x4096 .f32) :
    out0_A_5 c i a2 h2 a3 h3 a4 h4 a5 h5 a6 h6 a7 h7 hc x = k0_pay6 x (k0_pay5 (F := F)) := by
  unfold out0_A_5
  rw [View.read_writes_eq_canon _ _ _ (cover0_A_5 c i a2 h2 a3 h3 a4 h4 a5 h5 a6 h6 a7 h7 hc x)]
  unfold kernelRun0_A
  dsimp only
  sl_unfold_words
  rw [View.canon_cons_unit_zero (S := S128x1) origin, View.readCov_unit_zero (S := S128x1) _ origin]
  simp only [View.readAt_eq_ld, h2.read_unread, View.ld_unit_zero (S := S128x4096) origin]

/-- The partial-sum block at a later column block: the row sums of x added to what the block held. -/
theorem later_5 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S128x4096 .f32) (h5 : a5.IsWhole) (a6 : Memref sig .tc .vmem S128x4096 .f32) (h6 : a6.IsWhole) (a7 : Memref sig .tc .vmem S128x1 .f32) (h7 : a7.IsWhole) (hc : ¬cond0_0 i) (x : Vec F S128x4096 .f32) (xo : Vec F S128x1 .f32) :
    out0_B_5 c i a2 h2 a3 h3 a4 h4 a5 h5 a6 h6 a7 h7 hc x xo = k0_pay6 x xo := by
  unfold out0_B_5
  rw [View.read_writes_eq_canon _ _ _ (cover0_B_5 c i a2 h2 a3 h3 a4 h4 a5 h5 a6 h6 a7 h7 hc x xo)]
  unfold kernelRun0_B
  dsimp only
  rw [View.canon_unit_zero origin]
  simp only [View.readAt_eq_ld, h2.read_unread, h7.read_unread, View.ld_unit_zero (S := S128x4096) origin,
    View.ld_unit_zero (S := S128x1) origin]

end Cert.KernelIdeal.Pieces

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.RowSums.lean ====
/-
  Sums over a 4096 x 16384 matrix of extended reals, arranged three ways: entry by entry, row by row, and each row
  as four consecutive stretches of 4096 entries. Addition of extended reals is commutative and associative, so the
  three arrangements give one number whether or not every entry is finite.
-/
import Idealize.ShloMosaic.PureOps.Ideal
import Idealize.ShloMosaic.Lib.ValueIdx
import Mathlib.Algebra.BigOperators.Fin
import proofs.«166012_j73667279061061_2_alg».proof.Proof.LibSums

noncomputable section

open Idealize.ShloMosaic Idealize.ShloMosaic.ValueIdx

namespace Cert.RowSums

open Finset

/-- The matrix's shape and the shape of a column with one entry per row. -/
abbrev SX : Shape := ⟨2, ![4096, 16384]⟩
abbrev SC : Shape := ⟨2, ![4096, 1]⟩

/-- Entry (r, k) of the matrix, for any two naturals: zero outside the matrix. -/
def entry (X : SX.Idx → EReal) (r k : ℕ) : EReal :=
  if h : r < 4096 ∧ k < 16384 then X (ix2 ⟨r, h.1⟩ ⟨k, h.2⟩) else 0

theorem entry_of_lt (X : SX.Idx → EReal) (r : Fin 4096) (k : Fin 16384) : entry X r.val k.val = X (ix2 r k) := by
  unfold entry
  rw [dif_pos ⟨r.isLt, k.isLt⟩]

/-- Stretch j of row r: the sum of its entries in columns 4096 j, ..., 4096 j + 4095. -/
def stretch (X : SX.Idx → EReal) (r j : ℕ) : EReal := ∑ q ∈ range 4096, entry X r (4096 * j + q)

/-- The sum of row r. -/
def rowSum (X : SX.Idx → EReal) (r : Fin 4096) : EReal := ∑ k : Fin 16384, X (ix2 r k)

/-- A row is its four stretches, one after the other. -/
theorem sum_stretches (X : SX.Idx → EReal) (r : Fin 4096) : ∑ j ∈ range 4, stretch X r.val j = rowSum X r := by
  unfold rowSum stretch
  have e : ∀ k : Fin 16384, X (ix2 r k) = entry X r.val k.val := fun k => (entry_of_lt X r k).symm
  rw [Fintype.sum_congr _ _ e, Fin.sum_univ_eq_sum_range (fun k => entry X r.val k) 16384,
    show (16384 : ℕ) = 4 * 4096 from rfl, Cert.LibSums.sum_range_mul]
  refine sum_congr rfl fun j _ => sum_congr rfl fun q _ => ?_
  rw [Nat.mul_comm]

/-- The column of row sums. -/
def rowSums (X : SX.Idx → EReal) : SC.Idx → EReal := fun i => rowSum X (i 0)

/-- Adding up the column of row sums adds up the matrix. -/
theorem sum_rowSums (X : SX.Idx → EReal) : ∑ i : SC.Idx, rowSums X i = ∑ i : SX.Idx, X i := by
  rw [sum_idx2, sum_idx2]
  refine Fintype.sum_congr _ _ fun a => ?_
  rw [Fin.sum_univ_one]
  rfl

end Cert.RowSums

end
-- ==== Proof.BlockRead.lean ====
/-
  Reading one entry. Grid point t works on row block t / 4 and column block t % 4: its input block and its four
  elementwise output blocks sit at block index (t / 4, t % 4), its partial-sum block at (t / 4, 0). So entry (p, q) of
  the input block at point t is entry (128 (t / 4) + p, 4096 (t % 4) + q) of the matrix. The partial-sum payload at
  row p is what the block held at row p plus the sum of the 4096 entries of row p of the input block (the lane
  reduction starts from the float word of zero, which at the extended reals contributes nothing).
-/
import proofs.«166012_j73667279061061_2_alg».proof.Proof.Gen.KernelIdeal.Frame
import proofs.«166012_j73667279061061_2_alg».proof.Proof.RowSums
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.BlockRead

open Cert.KernelIdeal Cert.KernelIdeal.Gen Cert.RowSums Idealize.ShloMosaic.ValueIdx

variable (m : (ℓ : Loc nD τ sig) → Buf (Elt Ideal) ℓ)

/-- The printed index maps, decided once over the 128 grid points. -/
theorem block_index : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = t.val / 4 ∧ win0_3.index t (1 : Fin 2) = t.val % 4
    ∧ win0_4.index t (0 : Fin 2) = t.val / 4 ∧ win0_4.index t (1 : Fin 2) = t.val % 4
    ∧ win0_5.index t (0 : Fin 2) = t.val / 4 ∧ win0_5.index t (1 : Fin 2) = 0 :=
  (by decide +kernel : ∀ t : Fin grid0.N, _)

/-- Entry (p, q) of the input block at point t is entry (128 (t / 4) + p, 4096 (t % 4) + q) of the matrix. -/
theorem block_entry (c : Dev nD) (t : Fin cfg0.N) (p : Fin 128) (q : Fin 4096) :
    (iblk m c 0 t : Vec Ideal S128x4096 .f32) (ix2 p q)
      = entry (m ((c : Thread nD τ).loc main_arg0)) (128 * (t.val / 4) + p.val) (4096 * (t.val % 4) + q.val) := by
  have hN : t.val < 128 := lt_of_lt_of_eq t.isLt (show cfg0.N = 128 from N_0)
  obtain ⟨e0, e1, -⟩ := block_index t
  have hr : 128 * (t.val / 4) + p.val < 4096 := by have := p.isLt; omega
  have hk : 4096 * (t.val % 4) + q.val < 16384 := by have := q.isLt; omega
  unfold entry
  rw [dif_pos ⟨hr, hk⟩]
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 128 + 1 * p.val = 128 * (t.val / 4) + p.val; rw [e0]; omega
  | ⟨1, _⟩ => show win0_0.index t (1 : Fin 2) * 4096 + 1 * q.val = 4096 * (t.val % 4) + q.val; rw [e1]; omega

/-- The lane reduction of a 128 x 4096 block, at row p: the sum of that row's 4096 entries. -/
theorem lane_sum (x : FVec Ideal S128x4096 .f32) (h : S128x4096.Reduces [1] S128) (hφ : FKind.Formats .f32)
    (hacc : (0x00000000#32 : BitVec 32) = FKind.add.neutral .f32 hφ) (p : Fin 128) :
    multiReduction .add [1] S128 x 0x00000000#32 h hφ hacc (ix1 p) = ∑ q : Fin 4096, x (ix2 p q) := by
  refine (Ideal.multiReduction_add_single x _ h hφ hacc (ix1 p)).trans ?_
  show ∑ q : Fin 4096, x (h.lift (ix1 p) q) = _
  refine Fintype.sum_congr _ _ fun q => congrArg x ?_
  funext a
  apply Fin.ext
  match a with
  | ⟨0, _⟩ => rfl
  | ⟨1, _⟩ => rfl

/-- The partial-sum payload at row p: what the block held there plus the row's sum over the input block. -/
theorem partial_sum_apply (x : Vec Ideal S128x4096 .f32) (z : Vec Ideal S128x1 .f32) (p : Fin 128) (o : Fin 1) :
    k0_pay6 (F := Ideal) x z (ix2 p o) = z (ix2 p o) + ∑ q : Fin 4096, x (ix2 p q) := by
  unfold k0_pay6
  show _ + _ = _ + _
  refine congrArg₂ (· + ·) ?_ ?_
  · exact congrFun (shapeCast_self z _) _
  · refine (shapeCast_apply _ _ (ix2 p o) (ix1 p) ?_).trans (lane_sum x _ _ _ p)
    rw [Shape.rowMajor_val_one, Shape.rowMajor_val_two]
    have := o.isLt
    show p.val = p.val * 1 + o.val
    omega

/-- The block of zeros the first column block stores: zero at the extended reals. -/
theorem zeros_apply (y : S128x1.Idx) : k0_pay5 (F := Ideal) y = 0 := Ideal.ofBits_zero_f32

end Cert.KernelIdeal.BlockRead

end
-- ==== Proof.Accumulated.lean ====
/-
  The column of partial row sums, point by point. The four points 4 a, ..., 4 a + 3 work on row block a, one column
  block each. At the first of them the block is reset to zero and the row sums of the first column block added; at
  each later one the row sums of that point's column block are added to what the point before left. So after point n
  the block holds, at row p, the sum of stretches 0, ..., n % 4 of row 128 (n / 4) + p of the matrix: by induction on
  the point, the reset case starting a new sum and the adding case extending it by one stretch.
-/
import proofs.«166012_j73667279061061_2_alg».proof.Proof.BodyPieces
import proofs.«166012_j73667279061061_2_alg».proof.Proof.BlockRead

noncomputable section

open Idealize.ShloMosaic Idealize.ShloMosaic.TcCoe Idealize.SL.Sem
open Idealize.ShloMosaic.Pipeline (Dat)

namespace Cert.KernelIdeal.Accumulated

open Cert.KernelIdeal Cert.KernelIdeal.Gen Cert.KernelIdeal.Pieces Cert.KernelIdeal.BlockRead Cert.RowSums
open Idealize.ShloMosaic.ValueIdx Finset

variable (m : (ℓ : Loc nD τ sig) → Buf (Elt Ideal) ℓ)

/-- A row of a block whose entries are 4096 consecutive entries of a matrix row sums to that stretch. -/
theorem row_sum_of_entries (X : SX.Idx → EReal) (x : Vec Ideal S128x4096 .f32) (p : Fin 128) (r j : ℕ)
    (hx : ∀ q : Fin 4096, x (ix2 p q) = entry X r (4096 * j + q.val)) :
    ∑ q : Fin 4096, x (ix2 p q) = stretch X r j := by
  unfold stretch
  rw [Fintype.sum_congr _ _ hx]
  exact Fin.sum_univ_eq_sum_range (fun q => entry X r (4096 * j + q)) 4096

/-- At the first column block of a row block the partial-sum block is the payload over the block of zeros. -/
theorem at_first (c : Dev nD) (t : Fin cfg0.N) (h0 : t.val % 4 = 0) :
    (outsAt0 m c t.val t.isLt).2.2.2.2 = k0_pay6 (iblk m c 0 t) (k0_pay5 (F := Ideal)) := by
  rw [outsAt0_A m c t h0]
  exact first_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t)

/-- At a later column block it is the payload over what the point before left. -/
theorem at_later (c : Dev nD) (t : Fin cfg0.N) (h0 : ¬t.val % 4 = 0) :
    (outsAt0 m c t.val t.isLt).2.2.2.2
      = k0_pay6 (iblk m c 0 t) (outsAt0 m c (t.val - 1) (Nat.lt_of_le_of_lt (Nat.sub_le _ _) t.isLt)).2.2.2.2 := by
  rw [outsAt0_B m c t h0]
  exact later_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) _

/-- After point n the partial-sum block holds, at row p, stretches 0, ..., n % 4 of row 128 (n / 4) + p. -/
theorem partial_sums (c : Dev nD) : ∀ (n : ℕ) (h : n < cfg0.N) (p : Fin 128) (o : Fin 1),
    (outsAt0 m c n h).2.2.2.2 (ix2 p o)
      = ∑ s ∈ range (n % 4 + 1), stretch (m ((c : Thread nD τ).loc main_arg0)) (128 * (n / 4) + p.val) s
  | 0, h, p, o => by
    refine (congrFun (at_first m c ⟨0, h⟩ rfl) (ix2 p o)).trans ?_
    refine (partial_sum_apply (iblk m c 0 ⟨0, h⟩) _ p o).trans ?_
    refine (congrArg₂ (· + ·) (zeros_apply (ix2 p o)) (row_sum_of_entries (m ((c : Thread nD τ).loc main_arg0)) (iblk m c 0 ⟨0, h⟩) p _ _ (block_entry m c ⟨0, h⟩ p))).trans ?_
    show 0 + stretch (m ((c : Thread nD τ).loc main_arg0)) (128 * (0 / 4) + p.val) (0 % 4)
      = ∑ s ∈ range (0 % 4 + 1), stretch (m ((c : Thread nD τ).loc main_arg0)) (128 * (0 / 4) + p.val) s
    rw [zero_add, Nat.zero_mod, Nat.zero_add, sum_range_one]
  | n + 1, h, p, o => by
    by_cases h0 : (n + 1) % 4 = 0
    · refine (congrFun (at_first m c ⟨n + 1, h⟩ h0) (ix2 p o)).trans ?_
      refine (partial_sum_apply (iblk m c 0 ⟨n + 1, h⟩) _ p o).trans ?_
      refine (congrArg₂ (· + ·) (zeros_apply (ix2 p o)) (row_sum_of_entries (m ((c : Thread nD τ).loc main_arg0)) (iblk m c 0 ⟨n + 1, h⟩) p _ _ (block_entry m c ⟨n + 1, h⟩ p))).trans ?_
      show 0 + stretch (m ((c : Thread nD τ).loc main_arg0)) (128 * ((n + 1) / 4) + p.val) ((n + 1) % 4)
        = ∑ s ∈ range ((n + 1) % 4 + 1), stretch (m ((c : Thread nD τ).loc main_arg0)) (128 * ((n + 1) / 4) + p.val) s
      rw [zero_add, h0, Nat.zero_add, sum_range_one]
    · refine (congrFun (at_later m c ⟨n + 1, h⟩ h0) (ix2 p o)).trans ?_
      refine (partial_sum_apply (iblk m c 0 ⟨n + 1, h⟩) _ p o).trans ?_
      refine (congrArg₂ (· + ·) (partial_sums c n (Nat.lt_of_succ_lt h) p o) (row_sum_of_entries (m ((c : Thread nD τ).loc main_arg0)) (iblk m c 0 ⟨n + 1, h⟩) p _ _ (block_entry m c ⟨n + 1, h⟩ p))).trans ?_
      show ∑ s ∈ range (n % 4 + 1), stretch (m ((c : Thread nD τ).loc main_arg0)) (128 * (n / 4) + p.val) s
          + stretch (m ((c : Thread nD τ).loc main_arg0)) (128 * ((n + 1) / 4) + p.val) ((n + 1) % 4)
        = ∑ s ∈ range ((n + 1) % 4 + 1), stretch (m ((c : Thread nD τ).loc main_arg0)) (128 * ((n + 1) / 4) + p.val) s
      have e1 : (n + 1) / 4 = n / 4 := by omega
      have e2 : (n + 1) % 4 = n % 4 + 1 := by omega
      rw [e1, e2, sum_range_succ _ (n % 4 + 1)]

end Cert.KernelIdeal.Accumulated

end
-- ==== Proof.Results.lean ====
/-
  The five results as functions of the input matrix X over the extended reals: X + 1, X - 1, X * 2, X / 2 entry by entry
  (the constants are the float words of 1 and 2, the same words in both programs, so they are never evaluated), and
  the sum of all entries added to the float word of zero.
-/
import proofs.«166012_j73667279061061_2_alg».proof.Proof.RowSums

noncomputable section

open Idealize.ShloMosaic Idealize.ShloMosaic.ValueIdx

namespace Cert.Results

open Cert.RowSums

/-- The scalar shape: one entry, indexed by the empty tuple. -/
abbrev S0 : Shape := ⟨0, ![]⟩

def plusOne (X : SX.Idx → EReal) : SX.Idx → EReal := fun i => X i + Ideal.ofBits .f32 0x3F800000#32
def minusOne (X : SX.Idx → EReal) : SX.Idx → EReal := fun i => X i - Ideal.ofBits .f32 0x3F800000#32
def twice (X : SX.Idx → EReal) : SX.Idx → EReal := fun i => X i * Ideal.ofBits .f32 0x40000000#32
def half (X : SX.Idx → EReal) : SX.Idx → EReal := fun i => Ideal.div (X i) (Ideal.ofBits .f32 0x40000000#32)
def total (X : SX.Idx → EReal) : S0.Idx → EReal := fun _ => Ideal.ofBits .f32 0x00000000#32 + ∑ i : SX.Idx, X i

end Cert.Results

end
-- ==== Proof.Arrays.lean ====
/-
  The five arrays after the region. Every point writes back its four elementwise blocks; block (t / 4, t % 4) of
  output k is the matching block of X + 1, X - 1, X * 2 or X / 2, because the output block and the input block sit
  at the same place in their arrays. These blocks tile the 4096 x 16384 arrays (entry (r, k) lies in the block of
  point 4 (r / 128) + k / 4096), so each elementwise array ends as the whole-matrix function. The partial-sum block
  is written back only at the last column block of each row block, t % 4 = 3, where it holds all four stretches of
  each of its rows, that is the row sums; these 32 blocks tile the 4096 x 1 column (row r lies in the block of point
  4 (r / 128) + 3), which therefore ends as the column of row sums.
-/
import proofs.«166012_j73667279061061_2_alg».proof.Proof.Accumulated
import proofs.«166012_j73667279061061_2_alg».proof.Proof.Results

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Pieces Cert.KernelIdeal.BlockRead Cert.KernelIdeal.Accumulated
open Cert.RowSums Cert.Results Idealize.ShloMosaic.ValueIdx

variable (m : (ℓ : Loc nD τ sig) → Buf (Elt Ideal) ℓ)

/-! ## Output 1: X + 1 -/

/-- Elementwise block 1 after point t, whichever branch the body took there. -/
theorem block_1 (c : Dev nD) (t : Fin cfg0.N) :
    (outsAt0 m c t.val t.isLt).1 = k0_pay1 (F := Ideal) (iblk m c 0 t) := by
  by_cases h0 : t.val % 4 = 0
  · rw [outsAt0_A m c t h0]
    dsimp only
    exact first_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t)
  · rw [outsAt0_B m c t h0]
    dsimp only
    exact later_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) _

/-- A block whose entry j is entry e j of X has, as its payload 1, the entries e j of X + 1. -/
theorem payload_1 (X : SX.Idx → EReal) (x : Vec Ideal S128x4096 .f32) (e : S128x4096.Idx → SX.Idx)
    (hx : ∀ j, x j = X (e j)) (j : S128x4096.Idx) : k0_pay1 (F := Ideal) x j = plusOne X (e j) := by
  show x j + _ = X (e j) + _
  rw [hx]
  rfl

/-- Entry j of point t's input block and entry j of its block of output 1 sit at the same place in their arrays. -/
theorem same_place_1 (t : Fin cfg0.N) (j : S128x4096.Idx) :
    ((cfg0.win 0).blk t).view.emb j = ((cfg0.win 1).blk t).view.emb j := by
  obtain ⟨e0, e1, f0, f1, -, -, -, -, -, -, -, -⟩ := block_index t
  funext a
  apply Fin.ext
  match a with
  | ⟨0, _⟩ => show win0_0.index t (0 : Fin 2) * 128 + 1 * (j 0).val = win0_1.index t (0 : Fin 2) * 128 + 1 * (j 0).val; rw [e0, f0]
  | ⟨1, _⟩ => show win0_0.index t (1 : Fin 2) * 4096 + 1 * (j 1).val = win0_1.index t (1 : Fin 2) * 4096 + 1 * (j 1).val; rw [e1, f1]

/-- What point t writes back to output 1 is its block of X + 1. -/
theorem flushed_1 (c : Dev nD) (t : Fin cfg0.N) :
    (dats m 0 c).flushed 1 t = ((cfg0.win 1).blk t).view.read (Elt Ideal) (plusOne (m ((c : Thread nD τ).loc main_arg0))) := by
  show (cfg0.win 1).cut (grid0.coords t) ((dats m 0 c).after 1 t) = _
  rw [after0_1, block_1 m c t]
  funext (j : S128x4096.Idx)
  show k0_pay1 (F := Ideal) (iblk m c 0 t) j = plusOne (m ((c : Thread nD τ).loc main_arg0)) (((cfg0.win 1).blk t).view.emb j)
  refine payload_1 (m ((c : Thread nD τ).loc main_arg0)) (iblk m c 0 t) (fun j => ((cfg0.win 1).blk t).view.emb j) (fun j => ?_) j
  show (m ((c : Thread nD τ).loc main_arg0)) (((cfg0.win 0).blk t).view.emb j) = (m ((c : Thread nD τ).loc main_arg0)) (((cfg0.win 1).blk t).view.emb j)
  rw [same_place_1 t j]

/-- An entry of the array is in point t's block iff each coordinate is in the block's range on its axis. -/
theorem mem_block_1 (t : Fin cfg0.N) (i : S4096x16384.Idx) :
    i ∈ ((cfg0.win 1).blk t).view.set ↔ ∀ a : Fin 2, win0_1.index t a * S128x4096.size a ≤ (i a).val ∧ (i a).val < win0_1.index t a * S128x4096.size a + S128x4096.size a := by
  show i ∈ ((View.whole main_v0_0).slice (win0_1.rect t)).set ↔ _
  rw [View.set_slice_whole, Rect.mem_set_unit]
  exact Iff.rfl

/-- Entry (r, k) lies in the block written back at point 4 (r / 128) + k / 4096. -/
theorem covered_1 (i : S4096x16384.Idx) :
    ∃ t : Fin cfg0.N, (cfg0.win 1).flush t = true ∧ i ∈ ((cfg0.win 1).blk t).view.set := by
  have hi0 : (i 0).val < 4096 := (i 0).isLt
  have hi1 : (i 1).val < 16384 := (i 1).isLt
  have hN : cfg0.N = 128 := N_0
  obtain ⟨t, ht⟩ : ∃ t : Fin cfg0.N, t.val = 4 * ((i 0).val / 128) + (i 1).val / 4096 :=
    ⟨⟨4 * ((i 0).val / 128) + (i 1).val / 4096, by rw [hN]; omega⟩, rfl⟩
  obtain ⟨e0, e1, f0, f1, -, -, -, -, -, -, -, -⟩ := block_index t
  have q0 : win0_1.index t (0 : Fin 2) = (i 0).val / 128 := by rw [f0, ht]; omega
  have q1 : win0_1.index t (1 : Fin 2) = (i 1).val / 4096 := by rw [f1, ht]; omega
  refine ⟨t, flush0_1 t, ?_⟩
  rw [mem_block_1]
  intro a
  match a with
  | ⟨0, _⟩ => show win0_1.index t (0 : Fin 2) * 128 ≤ (i 0).val ∧ (i 0).val < win0_1.index t (0 : Fin 2) * 128 + 128; rw [q0]; omega
  | ⟨1, _⟩ => show win0_1.index t (1 : Fin 2) * 4096 ≤ (i 1).val ∧ (i 1).val < win0_1.index t (1 : Fin 2) * 4096 + 4096; rw [q1]; omega

/-- Output 1 after the region is X + 1. -/
theorem final_1 (c : Dev nD) : (dats m 0 c).arrAt 1 cfg0.N = plusOne (m ((c : Thread nD τ).loc main_arg0)) :=
  (dats m 0 c).arrAt_eq_of_cover 1 (plusOne (m ((c : Thread nD τ).loc main_arg0))) (fun t _ => flushed_1 m c t) covered_1

/-! ## Output 2: X - 1 -/

/-- Elementwise block 2 after point t, whichever branch the body took there. -/
theorem block_2 (c : Dev nD) (t : Fin cfg0.N) :
    (outsAt0 m c t.val t.isLt).2.1 = k0_pay2 (F := Ideal) (iblk m c 0 t) := by
  by_cases h0 : t.val % 4 = 0
  · rw [outsAt0_A m c t h0]
    dsimp only
    exact first_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t)
  · rw [outsAt0_B m c t h0]
    dsimp only
    exact later_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) _

/-- A block whose entry j is entry e j of X has, as its payload 2, the entries e j of X - 1. -/
theorem payload_2 (X : SX.Idx → EReal) (x : Vec Ideal S128x4096 .f32) (e : S128x4096.Idx → SX.Idx)
    (hx : ∀ j, x j = X (e j)) (j : S128x4096.Idx) : k0_pay2 (F := Ideal) x j = minusOne X (e j) := by
  show x j - _ = X (e j) - _
  rw [hx]
  rfl

/-- Entry j of point t's input block and entry j of its block of output 2 sit at the same place in their arrays. -/
theorem same_place_2 (t : Fin cfg0.N) (j : S128x4096.Idx) :
    ((cfg0.win 0).blk t).view.emb j = ((cfg0.win 2).blk t).view.emb j := by
  obtain ⟨e0, e1, -, -, f0, f1, -, -, -, -, -, -⟩ := block_index t
  funext a
  apply Fin.ext
  match a with
  | ⟨0, _⟩ => show win0_0.index t (0 : Fin 2) * 128 + 1 * (j 0).val = win0_2.index t (0 : Fin 2) * 128 + 1 * (j 0).val; rw [e0, f0]
  | ⟨1, _⟩ => show win0_0.index t (1 : Fin 2) * 4096 + 1 * (j 1).val = win0_2.index t (1 : Fin 2) * 4096 + 1 * (j 1).val; rw [e1, f1]

/-- What point t writes back to output 2 is its block of X - 1. -/
theorem flushed_2 (c : Dev nD) (t : Fin cfg0.N) :
    (dats m 0 c).flushed 2 t = ((cfg0.win 2).blk t).view.read (Elt Ideal) (minusOne (m ((c : Thread nD τ).loc main_arg0))) := by
  show (cfg0.win 2).cut (grid0.coords t) ((dats m 0 c).after 2 t) = _
  rw [after0_2, block_2 m c t]
  funext (j : S128x4096.Idx)
  show k0_pay2 (F := Ideal) (iblk m c 0 t) j = minusOne (m ((c : Thread nD τ).loc main_arg0)) (((cfg0.win 2).blk t).view.emb j)
  refine payload_2 (m ((c : Thread nD τ).loc main_arg0)) (iblk m c 0 t) (fun j => ((cfg0.win 2).blk t).view.emb j) (fun j => ?_) j
  show (m ((c : Thread nD τ).loc main_arg0)) (((cfg0.win 0).blk t).view.emb j) = (m ((c : Thread nD τ).loc main_arg0)) (((cfg0.win 2).blk t).view.emb j)
  rw [same_place_2 t j]

/-- An entry of the array is in point t's block iff each coordinate is in the block's range on its axis. -/
theorem mem_block_2 (t : Fin cfg0.N) (i : S4096x16384.Idx) :
    i ∈ ((cfg0.win 2).blk t).view.set ↔ ∀ a : Fin 2, win0_2.index t a * S128x4096.size a ≤ (i a).val ∧ (i a).val < win0_2.index t a * S128x4096.size a + S128x4096.size a := by
  show i ∈ ((View.whole main_v0_1).slice (win0_2.rect t)).set ↔ _
  rw [View.set_slice_whole, Rect.mem_set_unit]
  exact Iff.rfl

/-- Entry (r, k) lies in the block written back at point 4 (r / 128) + k / 4096. -/
theorem covered_2 (i : S4096x16384.Idx) :
    ∃ t : Fin cfg0.N, (cfg0.win 2).flush t = true ∧ i ∈ ((cfg0.win 2).blk t).view.set := by
  have hi0 : (i 0).val < 4096 := (i 0).isLt
  have hi1 : (i 1).val < 16384 := (i 1).isLt
  have hN : cfg0.N = 128 := N_0
  obtain ⟨t, ht⟩ : ∃ t : Fin cfg0.N, t.val = 4 * ((i 0).val / 128) + (i 1).val / 4096 :=
    ⟨⟨4 * ((i 0).val / 128) + (i 1).val / 4096, by rw [hN]; omega⟩, rfl⟩
  obtain ⟨e0, e1, -, -, f0, f1, -, -, -, -, -, -⟩ := block_index t
  have q0 : win0_2.index t (0 : Fin 2) = (i 0).val / 128 := by rw [f0, ht]; omega
  have q1 : win0_2.index t (1 : Fin 2) = (i 1).val / 4096 := by rw [f1, ht]; omega
  refine ⟨t, flush0_2 t, ?_⟩
  rw [mem_block_2]
  intro a
  match a with
  | ⟨0, _⟩ => show win0_2.index t (0 : Fin 2) * 128 ≤ (i 0).val ∧ (i 0).val < win0_2.index t (0 : Fin 2) * 128 + 128; rw [q0]; omega
  | ⟨1, _⟩ => show win0_2.index t (1 : Fin 2) * 4096 ≤ (i 1).val ∧ (i 1).val < win0_2.index t (1 : Fin 2) * 4096 + 4096; rw [q1]; omega

/-- Output 2 after the region is X - 1. -/
theorem final_2 (c : Dev nD) : (dats m 0 c).arrAt 2 cfg0.N = minusOne (m ((c : Thread nD τ).loc main_arg0)) :=
  (dats m 0 c).arrAt_eq_of_cover 2 (minusOne (m ((c : Thread nD τ).loc main_arg0))) (fun t _ => flushed_2 m c t) covered_2

/-! ## Output 3: X * 2 -/

/-- Elementwise block 3 after point t, whichever branch the body took there. -/
theorem block_3 (c : Dev nD) (t : Fin cfg0.N) :
    (outsAt0 m c t.val t.isLt).2.2.1 = k0_pay3 (F := Ideal) (iblk m c 0 t) := by
  by_cases h0 : t.val % 4 = 0
  · rw [outsAt0_A m c t h0]
    dsimp only
    exact first_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t)
  · rw [outsAt0_B m c t h0]
    dsimp only
    exact later_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) _

/-- A block whose entry j is entry e j of X has, as its payload 3, the entries e j of X * 2. -/
theorem payload_3 (X : SX.Idx → EReal) (x : Vec Ideal S128x4096 .f32) (e : S128x4096.Idx → SX.Idx)
    (hx : ∀ j, x j = X (e j)) (j : S128x4096.Idx) : k0_pay3 (F := Ideal) x j = twice X (e j) := by
  show x j * _ = X (e j) * _
  rw [hx]
  rfl

/-- Entry j of point t's input block and entry j of its block of output 3 sit at the same place in their arrays. -/
theorem same_place_3 (t : Fin cfg0.N) (j : S128x4096.Idx) :
    ((cfg0.win 0).blk t).view.emb j = ((cfg0.win 3).blk t).view.emb j := by
  obtain ⟨e0, e1, -, -, -, -, f0, f1, -, -, -, -⟩ := block_index t
  funext a
  apply Fin.ext
  match a with
  | ⟨0, _⟩ => show win0_0.index t (0 : Fin 2) * 128 + 1 * (j 0).val = win0_3.index t (0 : Fin 2) * 128 + 1 * (j 0).val; rw [e0, f0]
  | ⟨1, _⟩ => show win0_0.index t (1 : Fin 2) * 4096 + 1 * (j 1).val = win0_3.index t (1 : Fin 2) * 4096 + 1 * (j 1).val; rw [e1, f1]

/-- What point t writes back to output 3 is its block of X * 2. -/
theorem flushed_3 (c : Dev nD) (t : Fin cfg0.N) :
    (dats m 0 c).flushed 3 t = ((cfg0.win 3).blk t).view.read (Elt Ideal) (twice (m ((c : Thread nD τ).loc main_arg0))) := by
  show (cfg0.win 3).cut (grid0.coords t) ((dats m 0 c).after 3 t) = _
  rw [after0_3, block_3 m c t]
  funext (j : S128x4096.Idx)
  show k0_pay3 (F := Ideal) (iblk m c 0 t) j = twice (m ((c : Thread nD τ).loc main_arg0)) (((cfg0.win 3).blk t).view.emb j)
  refine payload_3 (m ((c : Thread nD τ).loc main_arg0)) (iblk m c 0 t) (fun j => ((cfg0.win 3).blk t).view.emb j) (fun j => ?_) j
  show (m ((c : Thread nD τ).loc main_arg0)) (((cfg0.win 0).blk t).view.emb j) = (m ((c : Thread nD τ).loc main_arg0)) (((cfg0.win 3).blk t).view.emb j)
  rw [same_place_3 t j]

/-- An entry of the array is in point t's block iff each coordinate is in the block's range on its axis. -/
theorem mem_block_3 (t : Fin cfg0.N) (i : S4096x16384.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v0_2).slice (win0_3.rect t)).set ↔ _
  rw [View.set_slice_whole, Rect.mem_set_unit]
  exact Iff.rfl

/-- Entry (r, k) lies in the block written back at point 4 (r / 128) + k / 4096. -/
theorem covered_3 (i : S4096x16384.Idx) :
    ∃ t : Fin cfg0.N, (cfg0.win 3).flush t = true ∧ i ∈ ((cfg0.win 3).blk t).view.set := by
  have hi0 : (i 0).val < 4096 := (i 0).isLt
  have hi1 : (i 1).val < 16384 := (i 1).isLt
  have hN : cfg0.N = 128 := N_0
  obtain ⟨t, ht⟩ : ∃ t : Fin cfg0.N, t.val = 4 * ((i 0).val / 128) + (i 1).val / 4096 :=
    ⟨⟨4 * ((i 0).val / 128) + (i 1).val / 4096, by rw [hN]; omega⟩, rfl⟩
  obtain ⟨e0, e1, -, -, -, -, f0, f1, -, -, -, -⟩ := block_index t
  have q0 : win0_3.index t (0 : Fin 2) = (i 0).val / 128 := by rw [f0, ht]; omega
  have q1 : win0_3.index t (1 : Fin 2) = (i 1).val / 4096 := by rw [f1, ht]; omega
  refine ⟨t, flush0_3 t, ?_⟩
  rw [mem_block_3]
  intro a
  match a with
  | ⟨0, _⟩ => show win0_3.index t (0 : Fin 2) * 128 ≤ (i 0).val ∧ (i 0).val < win0_3.index t (0 : Fin 2) * 128 + 128; rw [q0]; omega
  | ⟨1, _⟩ => show win0_3.index t (1 : Fin 2) * 4096 ≤ (i 1).val ∧ (i 1).val < win0_3.index t (1 : Fin 2) * 4096 + 4096; rw [q1]; omega

/-- Output 3 after the region is X * 2. -/
theorem final_3 (c : Dev nD) : (dats m 0 c).arrAt 3 cfg0.N = twice (m ((c : Thread nD τ).loc main_arg0)) :=
  (dats m 0 c).arrAt_eq_of_cover 3 (twice (m ((c : Thread nD τ).loc main_arg0))) (fun t _ => flushed_3 m c t) covered_3

/-! ## Output 4: X / 2 -/

/-- Elementwise block 4 after point t, whichever branch the body took there. -/
theorem block_4 (c : Dev nD) (t : Fin cfg0.N) :
    (outsAt0 m c t.val t.isLt).2.2.2.1 = k0_pay4 (F := Ideal) (iblk m c 0 t) := by
  by_cases h0 : t.val % 4 = 0
  · rw [outsAt0_A m c t h0]
    dsimp only
    exact first_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t)
  · rw [outsAt0_B m c t h0]
    dsimp only
    exact later_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) _

/-- A block whose entry j is entry e j of X has, as its payload 4, the entries e j of X / 2. -/
theorem payload_4 (X : SX.Idx → EReal) (x : Vec Ideal S128x4096 .f32) (e : S128x4096.Idx → SX.Idx)
    (hx : ∀ j, x j = X (e j)) (j : S128x4096.Idx) : k0_pay4 (F := Ideal) x j = half X (e j) := by
  show Ideal.div (x j) _ = Ideal.div (X (e j)) _
  rw [hx]
  rfl

/-- Entry j of point t's input block and entry j of its block of output 4 sit at the same place in their arrays. -/
theorem same_place_4 (t : Fin cfg0.N) (j : S128x4096.Idx) :
    ((cfg0.win 0).blk t).view.emb j = ((cfg0.win 4).blk t).view.emb j := by
  obtain ⟨e0, e1, -, -, -, -, -, -, f0, f1, -, -⟩ := block_index t
  funext a
  apply Fin.ext
  match a with
  | ⟨0, _⟩ => show win0_0.index t (0 : Fin 2) * 128 + 1 * (j 0).val = win0_4.index t (0 : Fin 2) * 128 + 1 * (j 0).val; rw [e0, f0]
  | ⟨1, _⟩ => show win0_0.index t (1 : Fin 2) * 4096 + 1 * (j 1).val = win0_4.index t (1 : Fin 2) * 4096 + 1 * (j 1).val; rw [e1, f1]

/-- What point t writes back to output 4 is its block of X / 2. -/
theorem flushed_4 (c : Dev nD) (t : Fin cfg0.N) :
    (dats m 0 c).flushed 4 t = ((cfg0.win 4).blk t).view.read (Elt Ideal) (half (m ((c : Thread nD τ).loc main_arg0))) := by
  show (cfg0.win 4).cut (grid0.coords t) ((dats m 0 c).after 4 t) = _
  rw [after0_4, block_4 m c t]
  funext (j : S128x4096.Idx)
  show k0_pay4 (F := Ideal) (iblk m c 0 t) j = half (m ((c : Thread nD τ).loc main_arg0)) (((cfg0.win 4).blk t).view.emb j)
  refine payload_4 (m ((c : Thread nD τ).loc main_arg0)) (iblk m c 0 t) (fun j => ((cfg0.win 4).blk t).view.emb j) (fun j => ?_) j
  show (m ((c : Thread nD τ).loc main_arg0)) (((cfg0.win 0).blk t).view.emb j) = (m ((c : Thread nD τ).loc main_arg0)) (((cfg0.win 4).blk t).view.emb j)
  rw [same_place_4 t j]

/-- An entry of the array is in point t's block iff each coordinate is in the block's range on its axis. -/
theorem mem_block_4 (t : Fin cfg0.N) (i : S4096x16384.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v0_3).slice (win0_4.rect t)).set ↔ _
  rw [View.set_slice_whole, Rect.mem_set_unit]
  exact Iff.rfl

/-- Entry (r, k) lies in the block written back at point 4 (r / 128) + k / 4096. -/
theorem covered_4 (i : S4096x16384.Idx) :
    ∃ t : Fin cfg0.N, (cfg0.win 4).flush t = true ∧ i ∈ ((cfg0.win 4).blk t).view.set := by
  have hi0 : (i 0).val < 4096 := (i 0).isLt
  have hi1 : (i 1).val < 16384 := (i 1).isLt
  have hN : cfg0.N = 128 := N_0
  obtain ⟨t, ht⟩ : ∃ t : Fin cfg0.N, t.val = 4 * ((i 0).val / 128) + (i 1).val / 4096 :=
    ⟨⟨4 * ((i 0).val / 128) + (i 1).val / 4096, by rw [hN]; omega⟩, rfl⟩
  obtain ⟨e0, e1, -, -, -, -, -, -, f0, f1, -, -⟩ := block_index t
  have q0 : win0_4.index t (0 : Fin 2) = (i 0).val / 128 := by rw [f0, ht]; omega
  have q1 : win0_4.index t (1 : Fin 2) = (i 1).val / 4096 := by rw [f1, ht]; omega
  refine ⟨t, flush0_4 t, ?_⟩
  rw [mem_block_4]
  intro a
  match a with
  | ⟨0, _⟩ => show win0_4.index t (0 : Fin 2) * 128 ≤ (i 0).val ∧ (i 0).val < win0_4.index t (0 : Fin 2) * 128 + 128; rw [q0]; omega
  | ⟨1, _⟩ => show win0_4.index t (1 : Fin 2) * 4096 ≤ (i 1).val ∧ (i 1).val < win0_4.index t (1 : Fin 2) * 4096 + 4096; rw [q1]; omega

/-- Output 4 after the region is X / 2. -/
theorem final_4 (c : Dev nD) : (dats m 0 c).arrAt 4 cfg0.N = half (m ((c : Thread nD τ).loc main_arg0)) :=
  (dats m 0 c).arrAt_eq_of_cover 4 (half (m ((c : Thread nD τ).loc main_arg0))) (fun t _ => flushed_4 m c t) covered_4

/-! ## Output 5: the column of row sums -/

/-- Entry j of point t's block of a 4096 x 1 column f is f at the place the block's entry j has in the column. -/
theorem read_block_5 (t : Fin cfg0.N) (f : S4096x1.Idx → EReal) (j : S128x1.Idx) :
    ((cfg0.win 5).blk t).view.read (Elt Ideal) f j = f (((cfg0.win 5).blk t).view.emb j) := rfl

/-- What a point that writes the partial-sum block back writes is its block of the column of row sums. -/
theorem flushed_5 (c : Dev nD) (t : Fin cfg0.N) (hf : (cfg0.win 5).flush t = true) :
    (dats m 0 c).flushed 5 t = ((cfg0.win 5).blk t).view.read (Elt Ideal) (rowSums (m ((c : Thread nD τ).loc main_arg0))) := by
  have h3 : t.val % 4 = 3 := (flush0_5 t).mp hf
  have hN : t.val < 128 := lt_of_lt_of_eq t.isLt (show cfg0.N = 128 from N_0)
  obtain ⟨-, -, -, -, -, -, -, -, -, -, e0, e1⟩ := block_index t
  show (cfg0.win 5).cut (grid0.coords t) ((dats m 0 c).after 5 t) = _
  rw [after0_5]
  funext (j : S128x1.Idx)
  refine Eq.trans ?_ (read_block_5 t (rowSums (m ((c : Thread nD τ).loc main_arg0))) j).symm
  show (outsAt0 m c t.val t.isLt).2.2.2.2 j = _
  obtain ⟨p, o, rfl⟩ : ∃ (p : Fin 128) (o : Fin 1), j = ix2 p o := ⟨j 0, j 1, eq_ix2 j⟩
  have hr : 128 * (t.val / 4) + p.val < 4096 := by have := p.isLt; omega
  rw [partial_sums m c t.val t.isLt p o, h3]
  refine (sum_stretches (m ((c : Thread nD τ).loc main_arg0)) ⟨128 * (t.val / 4) + p.val, hr⟩).trans ?_
  unfold rowSums
  refine congrArg (rowSum (m ((c : Thread nD τ).loc main_arg0))) (Fin.ext ?_)
  show 128 * (t.val / 4) + p.val = win0_5.index t (0 : Fin 2) * 128 + 1 * p.val
  rw [e0]; omega

theorem mem_block_5 (t : Fin cfg0.N) (i : S4096x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v0_4).slice (win0_5.rect t)).set ↔ _
  rw [View.set_slice_whole, Rect.mem_set_unit]
  exact Iff.rfl

/-- Row r of the column lies in the block written back at point 4 (r / 128) + 3. -/
theorem covered_5 (i : S4096x1.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 128 := N_0
  obtain ⟨t, ht⟩ : ∃ t : Fin cfg0.N, t.val = 4 * ((i 0).val / 128) + 3 :=
    ⟨⟨4 * ((i 0).val / 128) + 3, by rw [hN]; omega⟩, rfl⟩
  obtain ⟨-, -, -, -, -, -, -, -, -, -, f0, f1⟩ := block_index t
  have q0 : win0_5.index t (0 : Fin 2) = (i 0).val / 128 := by rw [f0, ht]; omega
  refine ⟨t, (flush0_5 t).mpr (by rw [ht]; omega), ?_⟩
  rw [mem_block_5]
  intro a
  match a with
  | ⟨0, _⟩ => show win0_5.index t (0 : Fin 2) * 128 ≤ (i 0).val ∧ (i 0).val < win0_5.index t (0 : Fin 2) * 128 + 128; rw [q0]; omega
  | ⟨1, _⟩ => show win0_5.index t (1 : Fin 2) * 1 ≤ (i 1).val ∧ (i 1).val < win0_5.index t (1 : Fin 2) * 1 + 1; rw [f1]; omega

/-- Output 5 after the region is the column of row sums. -/
theorem final_5 (c : Dev nD) : (dats m 0 c).arrAt 5 cfg0.N = rowSums (m ((c : Thread nD τ).loc main_arg0)) :=
  (dats m 0 c).arrAt_eq_of_cover 5 (rowSums (m ((c : Thread nD τ).loc main_arg0))) (flushed_5 m c) covered_5

end Cert.KernelIdeal.Arrays

end
-- ==== Proof.KernelRun.lean ====
/-
  The kernel program's whole run at the extended reals. The region leaves the four elementwise arrays at X + 1,
  X - 1, X * 2, X / 2 and the 4096 x 1 column at the row sums of X. The two host operations after the region add that
  column up, starting from the float word of zero: the float word of zero plus the sum of the row sums, which is
  the float word of zero plus the sum of every entry of X. The input array is never written.
-/
import proofs.«166012_j73667279061061_2_alg».proof.Proof.Arrays
import Idealize.ShloMosaic.Lib.StableHlo.Run

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Arrays Cert.RowSums Cert.Results
open Idealize.ShloMosaic.StableHlo

variable (m : (ℓ : Loc nD τ sig) → Buf (Elt Ideal) ℓ) (ρ : Dev nD → PrngReg)

/-- The host's sum of a 4096 x 1 column into a scalar: the initial word's value plus the sum of the column. -/
theorem host_sum (A : FVec Ideal S4096x1 .f32) (i : S_.Idx) :
    Host.reduceAdd (F := Ideal) A (constant (F := Ideal) S_ .f32 0x00000000#32) reducesTo_S4096x1_S_d0_1 h_S_ i
      = Ideal.ofBits .f32 0x00000000#32 + ∑ j : S4096x1.Idx, A j := by
  simp only [Host.reduceAdd, Ideal.hostReduceAdd_def]
  exact Ideal.hostReduceAdd_total reducesTo_S4096x1_S_d0_1 (fun b => b.elim0) A _ i

/-- The float word of zero plus the sum of the column of row sums is the total of X. -/
theorem total_of_row_sums (X : SX.Idx → EReal) (i : S_.Idx) :
    Ideal.ofBits .f32 0x00000000#32 + ∑ j : S4096x1.Idx, rowSums X j = total X i := by
  unfold total
  exact congrArg (fun s => Ideal.ofBits .f32 0x00000000#32 + s) (sum_rowSums X)

/-- The scalar result is a buffer no window stages. -/
theorem scalar_unstaged : main_v1 ∈ Pipeline.restRefs sig cfg0.spec := by decide

/-- The host operations after the region leave the scalar result at the total of X. -/
theorem tail (c : Dev nD) :
    Pipeline.afterTail₀ cfgs (dats m) 0 (V0 m) [hostOps1] c main_v1 = total (m ((c : Thread nD τ).loc main_arg0)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0_4)
      = rowSums (m ((c : Thread nD τ).loc main_arg0)) :=
    (Pipeline.withArrays_arr spec0 launch0.win.arr_inj c _ _ 5).trans (final_5 m c)
  rw [e]
  funext i
  exact (host_sum _ i).trans (total_of_row_sums _ i)

/-- Every weakly fair execution of the kernel program ends with its five results at the five functions of X and
    the input unchanged. -/
theorem run : θ_run defs (onTc (τ := τ) (main (F := Ideal))) ⟨m, fun _ => 0, ρ⟩ fun r => ∀ c : Dev nD,
      r.2.mem ((c : Thread nD τ).loc main_v0_0) = plusOne (m ((c : Thread nD τ).loc main_arg0))
      ∧ r.2.mem ((c : Thread nD τ).loc main_v0_1) = minusOne (m ((c : Thread nD τ).loc main_arg0))
      ∧ r.2.mem ((c : Thread nD τ).loc main_v0_2) = twice (m ((c : Thread nD τ).loc main_arg0))
      ∧ r.2.mem ((c : Thread nD τ).loc main_v0_3) = half (m ((c : Thread nD τ).loc main_arg0))
      ∧ r.2.mem ((c : Thread nD τ).loc main_v1) = total (m ((c : Thread nD τ).loc main_arg0))
      ∧ r.2.mem ((c : Thread nD τ).loc main_arg0) = m ((c : Thread nD τ).loc main_arg0) :=
  (θ_run defs _ _).mono (fun _ h c =>
      ⟨((h c).1 1).trans (final_1 m c), ((h c).1 2).trans (final_2 m c), ((h c).1 3).trans (final_3 m c),
        ((h c).1 4).trans (final_4 m c), ((h c).2 main_v1 scalar_unstaged).trans (tail m c),
        ((h c).1 0).trans (((dats m 0 c).arrAt_in 0 rfl _).trans ((A_eq m c 0).trans (V_main_arg0 m c)))⟩)
    (run_main m ρ)

end Cert.KernelIdeal.Run

end
-- ==== Proof.RefSide.lean ====
/-
  The reference's five results, read entry by entry from its run at the extended reals: each of the four
  elementwise results is the input entry combined with a broadcast constant, and the last is the float word of
  zero plus the sum of every entry.
-/
import proofs.«166012_j73667279061061_2_alg».proof.Proof.Gen.ReferenceIdeal.Run
import proofs.«166012_j73667279061061_2_alg».proof.Proof.Gen.ReferenceIdeal.Read
import proofs.«166012_j73667279061061_2_alg».proof.Proof.Results

noncomputable section

open Idealize.ShloMosaic Idealize.ShloMosaic.ValueIdx

namespace Cert.RefSide

open Cert.ReferenceIdeal Cert.ReferenceIdeal.Read Cert.RowSums

theorem sum_eq (X : SX.Idx → EReal) : val_main_v1 (F := Ideal) X = Cert.Results.plusOne X := by
  funext i
  rw [val_main_v1_apply, val_main_v0_apply, val_main_cst_apply]
  rfl

theorem difference_eq (X : SX.Idx → EReal) : val_main_v3 (F := Ideal) X = Cert.Results.minusOne X := by
  funext i
  rw [val_main_v3_apply, val_main_v2_apply, val_main_cst_0_apply]
  rfl

theorem product_eq (X : SX.Idx → EReal) : val_main_v5 (F := Ideal) X = Cert.Results.twice X := by
  funext i
  rw [val_main_v5_apply, val_main_v4_apply, val_main_cst_1_apply]
  rfl

theorem quotient_eq (X : SX.Idx → EReal) : val_main_v7 (F := Ideal) X = Cert.Results.half X := by
  funext i
  rw [val_main_v7_apply, val_main_v6_apply, val_main_cst_2_apply]
  rfl

theorem total_eq (X : SX.Idx → EReal) : val_main_v8 (F := Ideal) X = Cert.Results.total X := by
  funext i
  rw [val_main_v8_apply, val_main_cst_3_apply]
  rfl

end Cert.RefSide

end
-- ==== Proof.lean ====
/-
  The five claims. Both idealized programs compute, from the one input matrix X of extended reals, the four
  matrices X + 1, X - 1, X * 2, X / 2 and the sum of every entry of X. The reference does so in five host
  operations. The kernel cuts X into 32 x 4 blocks of 128 x 4096: every block writes its four elementwise blocks,
  and the four column blocks of a row block add their row sums, one after the other, into a 128 x 1 block that
  starts at zero; the host then adds up the resulting 4096 x 1 column. The elementwise results agree entry by
  entry because the float words of 1 and 2 are the same in both programs and the kernel's division and the host's
  are one function at the extended reals. The two totals agree because addition of extended reals is commutative
  and associative, so the sum of X arranged as rows of four stretches is the sum of X; no entry needs to be finite
  for this, and the precondition is not used. The frames are the generated ones, the reference's being its run
  with the results dropped; the idealization rewrote nothing, so it is preserved trivially.
-/
import proofs.«166012_j73667279061061_2_alg».proof.Defs
import proofs.«166012_j73667279061061_2_alg».proof.Proof.Gen.Kernel
import proofs.«166012_j73667279061061_2_alg».proof.Proof.Gen.Kernel.Frame
import proofs.«166012_j73667279061061_2_alg».proof.Proof.Gen.KernelIdeal
import proofs.«166012_j73667279061061_2_alg».proof.Proof.Gen.KernelIdeal.Frame
import proofs.«166012_j73667279061061_2_alg».proof.Proof.Gen.ReferenceIdeal
import proofs.«166012_j73667279061061_2_alg».proof.Proof.Gen.ReferenceIdeal.Run
import proofs.«166012_j73667279061061_2_alg».proof.Proof.Gen.ReferenceIdeal.Read
import proofs.«166012_j73667279061061_2_alg».proof.Proof.Gen.Pre_finite_inputs
import proofs.«166012_j73667279061061_2_alg».proof.Proof.KernelRun
import proofs.«166012_j73667279061061_2_alg».proof.Proof.RefSide
import Idealize.ShloMosaic.Adequacy
import Idealize.ShloMosaic.Init

noncomputable section

namespace Cert.Proof

open Idealize.ShloMosaic Idealize.SL.Sem Cert.Results

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2.2.2)
    (Cert.ReferenceIdeal.Value.run (F := Ideal) m ρ)

theorem preserves : Cert.preserves_Kernel_KernelIdeal := trivial

/-- Both runs end at the same five functions of the one input matrix. -/
theorem algebraic : Cert.algebraic_KernelIdeal_ReferenceIdeal := by
  intro m ρ m' ρ' _ hagree
  refine ⟨fun c => plusOne (m ((c.tc : Thread Cert.KernelIdeal.nD Cert.KernelIdeal.τ).loc Cert.KernelIdeal.main_arg0)), fun c => minusOne (m ((c.tc : Thread Cert.KernelIdeal.nD Cert.KernelIdeal.τ).loc Cert.KernelIdeal.main_arg0)), fun c => twice (m ((c.tc : Thread Cert.KernelIdeal.nD Cert.KernelIdeal.τ).loc Cert.KernelIdeal.main_arg0)), fun c => half (m ((c.tc : Thread Cert.KernelIdeal.nD Cert.KernelIdeal.τ).loc Cert.KernelIdeal.main_arg0)),
    fun c => total (m ((c.tc : Thread Cert.KernelIdeal.nD Cert.KernelIdeal.τ).loc Cert.KernelIdeal.main_arg0)), Cert.KernelIdeal.Run.run m ρ, ?_⟩
  refine (θ_run Cert.ReferenceIdeal.defs _ _).mono (fun _ h c => ?_) (Cert.ReferenceIdeal.Value.run (F := Ideal) m' ρ')
  obtain ⟨h1, h3, h5, h7, h8, h0⟩ := h c
  refine ⟨h1.trans ?_, h3.trans ?_, h5.trans ?_, h7.trans ?_, h8.trans ?_, h0⟩
  · rw [Cert.ReferenceIdeal.Read.val_main_v1_eq, hagree c]; exact Cert.RefSide.sum_eq _
  · rw [Cert.ReferenceIdeal.Read.val_main_v3_eq, hagree c]; exact Cert.RefSide.difference_eq _
  · rw [Cert.ReferenceIdeal.Read.val_main_v5_eq, hagree c]; exact Cert.RefSide.product_eq _
  · rw [Cert.ReferenceIdeal.Read.val_main_v7_eq, hagree c]; exact Cert.RefSide.quotient_eq _
  · rw [Cert.ReferenceIdeal.Read.val_main_v8_eq, hagree c]; exact Cert.RefSide.total_eq _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
